-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S3276x32x32 : Shape := ⟨3, ![3276, 32, 32]⟩
abbrev S3276 : Shape := ⟨1, ![3276]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S3276x32x32 : S_.BroadcastsInDim S3276x32x32 (![] : Fin 0 → Fin S3276x32x32.rank)
  reducesTo_S3276x32x32_S_d0_1_2 : S3276x32x32.ReducesTo [0, 1, 2] S_

variable [Facts]

def fn {F : FTy → Type} [FloatOps F] (main_arg0 : FVec F S8192x4096 .f32) (main_arg1 : FVec F S3276x32x32 .f32) (main_arg2 : IVec S3276 32) (main_arg3 : IVec S3276 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S3276x32x32 .f32 := Host.absf main_arg1
  let main_cst_0 : FVec F S_ .f32 := constant S_ .f32 0x7F800000#32
  let main_v5 : FVec F S3276x32x32 .f32 := broadcastInDim S3276x32x32 ![] bcast_S_S3276x32x32 main_cst_0
  let main_v6 : IVec S3276x32x32 1 := cmpf .olt main_v4 main_v5
  let main_c_1 : IVec S_ 1 := constantI S_ 1 1#1
  let main_v7 : IVec S_ 1 := (fun x v => Host.reduce IntOp.andi x v reducesTo_S3276x32x32_S_d0_1_2 h_S_) main_v6 main_c_1
  let main_v8 : IVec S_ 1 := andi main_v3 main_v7
  main_v8
-- ==== Kernel.lean ====
abbrev S8192x4096 : Shape := ⟨2, ![8192, 4096]⟩
abbrev S3276x32x32 : Shape := ⟨3, ![3276, 32, 32]⟩
abbrev S3276 : Shape := ⟨1, ![3276]⟩
abbrev S_ : Shape := ⟨0, ![]⟩
abbrev S128x32x128x32 : Shape := ⟨4, ![128, 32, 128, 32]⟩
abbrev S3276x1 : Shape := ⟨2, ![3276, 1]⟩
abbrev S3276x2 : Shape := ⟨2, ![3276, 2]⟩
abbrev S4096x4096 : Shape := ⟨2, ![4096, 4096]⟩
abbrev S128x4096 : Shape := ⟨2, ![128, 4096]⟩

abbrev nBuf : Space → Nat
  | .hbm => 27
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S3276x32x32, .f32⟩
  | .hbm, ⟨2, _⟩ => ⟨S3276, .i32⟩
  | .hbm, ⟨3, _⟩ => ⟨S3276, .i32⟩
  | .hbm, ⟨4, _⟩ => ⟨S_, .bf16⟩
  | .hbm, ⟨5, _⟩ => ⟨S128x32x128x32, .bf16⟩
  | .hbm, ⟨6, _⟩ => ⟨S3276x32x32, .bf16⟩
  | .hbm, ⟨7, _⟩ => ⟨S_, .i32⟩
  | .hbm, ⟨8, _⟩ => ⟨S3276, .i32⟩
  | .hbm, ⟨9, _⟩ => ⟨S3276, .i1⟩
  | .hbm, ⟨10, _⟩ => ⟨S_, .i32⟩
  | .hbm, ⟨11, _⟩ => ⟨S3276, .i32⟩
  | .hbm, ⟨12, _⟩ => ⟨S3276, .i32⟩
  | .hbm, ⟨13, _⟩ => ⟨S3276, .i32⟩
  | .hbm, ⟨14, _⟩ => ⟨S_, .i32⟩
  | .hbm, ⟨15, _⟩ => ⟨S3276, .i32⟩
  | .hbm, ⟨16, _⟩ => ⟨S3276, .i1⟩
  | .hbm, ⟨17, _⟩ => ⟨S_, .i32⟩
  | .hbm, ⟨18, _⟩ => ⟨S3276, .i32⟩
  | .hbm, ⟨19, _⟩ => ⟨S3276, .i32⟩
  | .hbm, ⟨20, _⟩ => ⟨S3276, .i32⟩
  | .hbm, ⟨21, _⟩ => ⟨S3276x1, .i32⟩
  | .hbm, ⟨22, _⟩ => ⟨S3276x1, .i32⟩
  | .hbm, ⟨23, _⟩ => ⟨S3276x2, .i32⟩
  | .hbm, ⟨24, _⟩ => ⟨S128x32x128x32, .bf16⟩
  | .hbm, ⟨25, _⟩ => ⟨S4096x4096, .bf16⟩
  | .hbm, ⟨26, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128x32x128x32 : S_.BroadcastsInDim S128x32x128x32 (![] : Fin 0 → Fin S128x32x128x32.rank)
  bitsLt_bf16_f32 : FTy.bits .bf16 < FTy.bits .f32
  bcast_S_S3276 : S_.BroadcastsInDim S3276 (![] : Fin 0 → Fin S3276.rank)
  bcast_S3276_S3276x1_0 : S3276.BroadcastsInDim S3276x1 (![0] : Fin 1 → Fin S3276x1.rank)
  concatenates_S3276x1_S3276x1_S3276x2_d1 : Shape.Concatenates [S3276x1, S3276x1] S3276x2 1
  shapeCasts_S128x32x128x32_S4096x4096 : S128x32x128x32.ShapeCasts S4096x4096
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  scatter_S128x32x128x32_S3276x2_S3276x32x32_12_02_02_1_wf : ScatterDims.WF S128x32x128x32 S3276x2 S3276x32x32 [1, 2] [0, 2] [0, 2] 1
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)

variable [Facts₀]

def scatter_S128x32x128x32_S3276x2_S3276x32x32_12_02_02_1 : ScatterDims S128x32x128x32 S3276x2 S3276x32x32 where
  updateWindowDims := [1, 2]
  insertedWindowDims := [0, 2]
  scatterDimsToOperandDims := [0, 2]
  indexVectorDim := 1
  wf := scatter_S128x32x128x32_S3276x2_S3276x32x32_12_02_02_1_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S3276x32x32 : Shape := ⟨3, ![3276, 32, 32]⟩
abbrev S3276 : Shape := ⟨1, ![3276]⟩
abbrev S_ : Shape := ⟨0, ![]⟩
abbrev S128x128x32x32 : Shape := ⟨4, ![128, 128, 32, 32]⟩
abbrev S3276x1 : Shape := ⟨2, ![3276, 1]⟩
abbrev S3276x2 : Shape := ⟨2, ![3276, 2]⟩
abbrev S128x32x128x32 : Shape := ⟨4, ![128, 32, 128, 32]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S3276x32x32, .f32⟩
  | .hbm, ⟨2, _⟩ => ⟨S3276, .i32⟩
  | .hbm, ⟨3, _⟩ => ⟨S3276, .i32⟩
  | .hbm, ⟨4, _⟩ => ⟨S_, .f32⟩
  | .hbm, ⟨5, _⟩ => ⟨S128x128x32x32, .f32⟩
  | .hbm, ⟨6, _⟩ => ⟨S_, .i32⟩
  | .hbm, ⟨7, _⟩ => ⟨S3276, .i32⟩
  | .hbm, ⟨8, _⟩ => ⟨S3276, .i1⟩
  | .hbm, ⟨9, _⟩ => ⟨S_, .i32⟩
  | .hbm, ⟨10, _⟩ => ⟨S3276, .i32⟩
  | .hbm, ⟨11, _⟩ => ⟨S3276, .i32⟩
  | .hbm, ⟨12, _⟩ => ⟨S3276, .i32⟩
  | .hbm, ⟨13, _⟩ => ⟨S_, .i32⟩
  | .hbm, ⟨14, _⟩ => ⟨S3276, .i32⟩
  | .hbm, ⟨15, _⟩ => ⟨S3276, .i1⟩
  | .hbm, ⟨16, _⟩ => ⟨S_, .i32⟩
  | .hbm, ⟨17, _⟩ => ⟨S3276, .i32⟩
  | .hbm, ⟨18, _⟩ => ⟨S3276, .i32⟩
  | .hbm, ⟨19, _⟩ => ⟨S3276, .i32⟩
  | .hbm, ⟨20, _⟩ => ⟨S3276x1, .i32⟩
  | .hbm, ⟨21, _⟩ => ⟨S3276x1, .i32⟩
  | .hbm, ⟨22, _⟩ => ⟨S3276x2, .i32⟩
  | .hbm, ⟨23, _⟩ => ⟨S128x128x32x32, .f32⟩
  | .hbm, ⟨24, _⟩ => ⟨S128x32x128x32, .f32⟩
  | .hbm, ⟨25, _⟩ => ⟨S4096x4096, .f32⟩
  | .hbm, ⟨26, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S128x128x32x32 : S_.BroadcastsInDim S128x128x32x32 (![] : Fin 0 → Fin S128x128x32x32.rank)
  bcast_S_S3276 : S_.BroadcastsInDim S3276 (![] : Fin 0 → Fin S3276.rank)
  bcast_S3276_S3276x1_0 : S3276.BroadcastsInDim S3276x1 (![0] : Fin 1 → Fin S3276x1.rank)
  concatenates_S3276x1_S3276x1_S3276x2_d1 : Shape.Concatenates [S3276x1, S3276x1] S3276x2 1
  transposes_S128x128x32x32_S128x32x128x32_0_2_1_3 : S128x128x32x32.Transposes [0, 2, 1, 3] S128x32x128x32
  shapeCasts_S128x32x128x32_S4096x4096 : S128x32x128x32.ShapeCasts S4096x4096
  scatter_S128x128x32x32_S3276x2_S3276x32x32_12_01_01_1_wf : ScatterDims.WF S128x128x32x32 S3276x2 S3276x32x32 [1, 2] [0, 1] [0, 1] 1
  dot_S8192x4096_S4096x4096_S8192x4096_1_0_0_1_n_n_wf : DotDims.WF S8192x4096 S4096x4096 S8192x4096 [1] [0] [0] [1] [] []

variable [Facts₀]

def scatter_S128x128x32x32_S3276x2_S3276x32x32_12_01_01_1 : ScatterDims S128x128x32x32 S3276x2 S3276x32x32 where
  updateWindowDims := [1, 2]
  insertedWindowDims := [0, 1]
  scatterDimsToOperandDims := [0, 1]
  indexVectorDim := 1
  wf := scatter_S128x128x32x32_S3276x2_S3276x32x32_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelBlock.lean ====
/-
  What one grid step of the kernel computes, entry by entry.

  The body loads its 128-row block `x0` of the activations and the whole dense weight `x1`, narrows the block to
  bf16 (the identity on extended reals), and stores the matrix product accumulated into a zero tile. Read at row
  `p` and column `n` of the tile that product is the plain sum  ∑ₖ x0(p, k) · x1(k, n)  over the 4096 contraction
  positions: the product's operand indices at output index (p, n) and contraction position k are (p, k) and (k, n).
-/
import proofs.«111315_j65841848648012_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The body's matrix product: [128, 4096] by [4096, 4096], contracting the left columns with the right rows. -/
abbrev dot := dot_S128x4096_S4096x4096_S128x4096_1_0_0_1_n_n

theorem lhs_row (i : S128x4096.Idx) (q : dot.contr.Idx) : (dot.lhsIdx i q 0).val = (i 0).val := by
  unfold DotDims.lhsIdx
  rw [dif_neg (show ¬(0 : Fin S128x4096.rank) ∈ dot.lhsBatch by decide),
    dif_pos (show (0 : Fin S128x4096.rank) ∈ dot.lhsNonContracting by decide)]
  rfl
theorem lhs_col (i : S128x4096.Idx) (q : dot.contr.Idx) : (dot.lhsIdx i q 1).val = (q ⟨0, by decide⟩).val :=
  dot.lhsIdx_val_of_single rfl i q
theorem rhs_row (i : S128x4096.Idx) (q : dot.contr.Idx) : (dot.rhsIdx i q 0).val = (q ⟨0, by decide⟩).val :=
  dot.rhsIdx_val_of_single rfl i q
theorem rhs_col (i : S128x4096.Idx) (q : dot.contr.Idx) : (dot.rhsIdx i q 1).val = (i 1).val := by
  unfold DotDims.rhsIdx
  rw [dif_neg (show ¬(1 : Fin S4096x4096.rank) ∈ dot.rhsBatch by decide),
    dif_pos (show (1 : Fin S4096x4096.rank) ∈ dot.rhsNonContracting by decide)]
  rfl

/-- THE TILE, ENTRY BY ENTRY: row `p`, column `n` of what the body stores is ∑ₖ x0(p, k) · x1(k, n). -/
theorem pay_apply (x0 : Vec Ideal S128x4096 .f32) (x1 : Vec Ideal S4096x4096 .bf16) (p : Fin 128) (n : Fin 4096) :
    k0_pay1 (F := Ideal) x0 x1 (ix2 p n) = ∑ k : Fin 4096, x0 (ix2 p k) * x1 (ix2 k n) := by
  show FloatOps.matmul dot none (truncf (F := Ideal) .bf16 x0 bitsLt_bf16_f32)
      (shapeCast S4096x4096 x1 shapeCasts_S4096x4096_S4096x4096) (constant S128x4096 .f32 0x00000000#32) (ix2 p n) = _
  rw [shapeCast_self, Ideal.matmul_constant_zero_apply, ← Equiv.sum_comp (contrEquiv1 dot 4096 rfl rfl).symm]
  refine Finset.sum_congr rfl fun k _ => ?_
  have hk := contrEquiv1_symm_val dot 4096 rfl rfl k
  have el : dot.lhsIdx (ix2 p n) ((contrEquiv1 dot 4096 rfl rfl).symm k) = ix2 p k := funext fun a => Fin.ext (by
    match a with
    | ⟨0, _⟩ => exact lhs_row _ _
    | ⟨1, _⟩ => exact (lhs_col _ _).trans hk)
  have er : dot.rhsIdx (ix2 p n) ((contrEquiv1 dot 4096 rfl rfl).symm k) = ix2 k n := funext fun a => Fin.ext (by
    match a with
    | ⟨0, _⟩ => exact (rhs_row _ _).trans hk
    | ⟨1, _⟩ => exact rhs_col _ _)
  rw [el, er]
  rfl

end Cert.KernelIdeal.Block

end
-- ==== Proof.Spec.lean ====
/-
  The specification both programs meet: the matrix product of the [8192, 4096] activations `X` with a
  [4096, 4096] weight `W`, entry by entry,   (X · W)(m, n) = ∑ₖ X(m, k) · W(k, n)   over the extended reals.
  Only sums and products occur, in one fixed arrangement on both sides, so no finiteness of the inputs is used.
-/
import Idealize.ShloMosaic.PureOps.Ideal
import Idealize.ShloMosaic.Lib.ValueIdx

noncomputable section

namespace Cert.Spec

open Idealize.ShloMosaic Idealize.ShloMosaic.ValueIdx

/-- The activations' (and the result's) shape, and the dense weight's. -/
abbrev SX : Shape := ⟨2, ![8192, 4096]⟩
abbrev SW : Shape := ⟨2, ![4096, 4096]⟩

/-- `X · W` at entry `i = (m, n)`. -/
def product (X : SX.Idx → EReal) (W : SW.Idx → EReal) : SX.Idx → EReal :=
  fun i => ∑ k : Fin 4096, X (ix2 (i 0) k) * W (ix2 k (i 1))

end Cert.Spec

end
-- ==== Proof.KernelArray.lean ====
/-
  The kernel's result array after the run is the product of its two operand arrays.

  Grid point `t` (of 64) stages rows 128·t … 128·t + 127 of the activations and the whole weight, and writes the
  tile of KernelBlock.lean back to rows 128·t … 128·t + 127 of the result. An element of a block sits in its array,
  on each axis, at the block index times the block's extent plus its coordinate inside the block; the block indices
  are (t, 0) for the activations and the result and (0, 0) for the weight. So what point `t` writes back is block
  `t` of the product array; the 64 row blocks cover the result array (row `m` is in block `m / 128`), and the array
  ends holding the product.
-/
import proofs.«111315_j65841848648012_2_alg».proof.Proof.Gen.KernelIdeal.Value
import proofs.«111315_j65841848648012_2_alg».proof.Proof.KernelBlock
import proofs.«111315_j65841848648012_2_alg».proof.Proof.Spec

noncomputable section

namespace Cert.KernelIdeal.Product

open Cert.KernelIdeal Cert.KernelIdeal.Gen Cert.KernelIdeal.Value Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The tile of one grid step at a general index of the tile. -/
theorem pay_at (x0 : Vec Ideal S128x4096 .f32) (x1 : Vec Ideal S4096x4096 .bf16) (j : S128x4096.Idx) :
    k0_pay1 (F := Ideal) x0 x1 j = ∑ k : Fin 4096, x0 (ix2 (j 0) k) * x1 (ix2 k (j 1)) := by
  obtain ⟨p, n, rfl⟩ : ∃ (p : Fin 128) (n : Fin 4096), j = ix2 p n := ⟨j 0, j 1, eq_ix2 j⟩
  exact Block.pay_apply x0 x1 p n

/-- The block indices over the grid: the activations' and the result's blocks move down one block of rows per
    point, the weight's block stays. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point `t`, read off ANY contents `A` of the activations' array: rows
    128·(block index) + p of `A`. (Stated over a variable array: the block is a window onto whatever the array holds.) -/
theorem read_rows {c : Dev nD} (A : Buf (Elt Ideal) ((c : Thread nD τ).loc (Pipeline.arrRef spec0 0))) (t : Fin cfg0.N)
    (p : Fin 128) (k : Fin 4096) (r : Fin 8192) (hr : r.val = win0_0.index t (0 : Fin 2) * 128 + p.val)
    (h1 : win0_0.index t (1 : Fin 2) = 0) :
    ((cfg0.win 0).blk t).view.read (Elt Ideal) A (ix2 p k) = (A : SX.Idx → EReal) (ix2 r k) := by
  show A (((cfg0.win 0).blk t).view.emb (ix2 p k)) = A _
  refine congrArg A (funext fun a => Fin.ext ?_)
  match a with
  | ⟨0, _⟩ => show win0_0.index t (0 : Fin 2) * 128 + 1 * p.val = r.val; rw [hr]; omega
  | ⟨1, _⟩ => show win0_0.index t (1 : Fin 2) * 4096 + 1 * k.val = k.val; rw [h1]; omega

/-- The weight's one block, read off ANY contents `A` of the weight's array, is `A`. -/
theorem read_whole {c : Dev nD} (A : Buf (Elt Ideal) ((c : Thread nD τ).loc (Pipeline.arrRef spec0 1))) (t : Fin cfg0.N)
    (k n : Fin 4096) (h0 : win0_1.index t (0 : Fin 2) = 0) (h1 : win0_1.index t (1 : Fin 2) = 0) :
    ((cfg0.win 1).blk t).view.read (Elt Ideal) A (ix2 k n) = (A : SW.Idx → EReal) (ix2 k n) := by
  show A (((cfg0.win 1).blk t).view.emb (ix2 k n)) = A _
  refine congrArg A (funext fun a => Fin.ext ?_)
  match a with
  | ⟨0, _⟩ => show win0_1.index t (0 : Fin 2) * 4096 + 1 * k.val = k.val; rw [h0]; omega
  | ⟨1, _⟩ => show win0_1.index t (1 : Fin 2) * 4096 + 1 * n.val = n.val; rw [h1]; omega

/-- The two operand arrays as the region finds them: the activations, and the weight the wrapper assembled before
    the region (whatever it holds: nothing here depends on its entries). -/
def X (c : Dev nD) : SX.Idx → EReal := V m c (Pipeline.arrRef spec0 0)
def W (c : Dev nD) : SW.Idx → EReal := V m c (Pipeline.arrRef spec0 1)

theorem iblk_X (c : Dev nD) (t : Fin cfg0.N) (p : Fin 128) (k : Fin 4096) (r : Fin 8192)
    (hr : r.val = win0_0.index t (0 : Fin 2) * 128 + p.val) (h1 : win0_0.index t (1 : Fin 2) = 0) :
    iblk m c 0 t (ix2 p k) = X m c (ix2 r k) := by
  unfold iblk X
  exact read_rows _ t p k r hr h1

theorem iblk_W (c : Dev nD) (t : Fin cfg0.N) (k n : Fin 4096) (h0 : win0_1.index t (0 : Fin 2) = 0)
    (h1 : win0_1.index t (1 : Fin 2) = 0) : iblk m c 1 t (ix2 k n) = W m c (ix2 k n) := by
  unfold iblk W
  exact read_whole _ t k n h0 h1

/-- WHAT POINT `t` WRITES BACK is block `t` of the product of the two operand arrays. -/
theorem flushed_eq (c : Dev nD) (t : Fin cfg0.N) :
    (dats m 0 c).flushed 2 t = ((cfg0.win 2).blk t).view.read (Elt Ideal) (product (X m c) (W m c)) := by
  rw [flushed2]
  unfold out0_2
  rw [View.canon_unit_zero hz]
  simp only [View.ld_unit_zero (S := S128x4096) hz, View.ld_unit_zero (S := S4096x4096) hz]
  obtain ⟨e0, e1, e2, e3, e4, e5⟩ := block_indices t
  funext j
  refine (pay_at (iblk m c 0 t) (iblk m c 1 t) _).trans ?_
  show _ = ∑ k : Fin 4096, X m c (ix2 ((((cfg0.win 2).blk t).view.emb j) 0) k) * W m c (ix2 k ((((cfg0.win 2).blk t).view.emb j) 1))
  refine Finset.sum_congr rfl fun k _ => ?_
  refine congrArg₂ (· * ·) (iblk_X m c t _ k _ ?_ e1) ((iblk_W m c t k _ e2 e3).trans (congrArg (fun n => W m c (ix2 k n)) (Fin.ext ?_)))
  · show win0_2.index t (0 : Fin 2) * 128 + 1 * (j 0).val = win0_0.index t (0 : Fin 2) * 128 + (j 0).val; rw [e0]; omega
  · show (j 1).val = win0_2.index t (1 : Fin 2) * 4096 + 1 * (j 1).val; rw [e5]; omega

/-- An index of the result array is in point `t`'s block iff each coordinate is in the block's range on its axis. -/
theorem mem_blk (t : Fin cfg0.N) (i : S8192x4096.Idx) :
    i ∈ ((cfg0.win 2).blk t).view.set ↔ ∀ a : Fin 2, win0_2.index t a * S128x4096.size a ≤ (i a).val ∧ (i a).val < win0_2.index t a * S128x4096.size a + S128x4096.size a := by
  show i ∈ ((View.whole main_v17).slice (win0_2.rect t)).set ↔ _
  rw [View.set_slice_whole, Rect.mem_set_unit]
  exact Iff.rfl

/-- The 64 row blocks cover the result array: row `r` lies in the block of point `r / 128`. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨e0, e1, e2, e3, e4, e5⟩ := block_indices t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; rw [e4, ht]; omega
  | ⟨1, _⟩ => show win0_2.index t (1 : Fin 2) * 4096 ≤ (i 1).val ∧ (i 1).val < win0_2.index t (1 : Fin 2) * 4096 + 4096; rw [e5]; omega

/-- THE RESULT ARRAY after the run is the product of the operand arrays. -/
theorem final (c : Dev nD) : (dats m 0 c).arrAt 2 cfg0.N = product (X m c) (W m c) :=
  (dats m 0 c).arrAt_eq_of_cover 2 (product (X m c) (W m c)) (fun t _ => flushed_eq m c t) cover

/-- The activations reach the region as launched. -/
theorem X_eq (c : Dev nD) : X m c = m ((c : Thread nD τ).loc main_arg0) := V_main_arg0 m c

/-- The run, read: the result array at the product of the activations as launched with the weight the wrapper
    assembled, the arguments unchanged. -/
theorem run : θ_run defs (onTc (τ := τ) (main (F := Ideal))) ⟨m, fun _ => 0, ρ⟩ fun r => ∀ c : Dev nD,
      r.2.mem ((c : Thread nD τ).loc main_v17) = product (m ((c : Thread nD τ).loc main_arg0)) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans ((final m c).trans (congrArg (fun x => product x (W m c)) (X_eq m c))), (h c).2⟩)
    (run_blocks m ρ)

end Cert.KernelIdeal.Product

end
-- ==== Proof.KernelWeight.lean ====
/-
  The weight the kernel multiplies by, as a term of the arguments.

  Before the region the wrapper narrows the compressed tiles to bf16 (the identity on extended reals), wraps each
  negative block coordinate once by 128, pairs the two coordinate lists into one index word array, overwrites a
  zero [128, 32, 128, 32] array with the tiles at those coordinates, and regroups the result row-major as the
  [4096, 4096] weight. The array the region finds in the weight's buffer is exactly that composed term.
-/
import proofs.«111315_j65841848648012_2_alg».proof.Proof.KernelArray
import Idealize.ShloMosaic.Lib.StableHlo.Run

noncomputable section

namespace Cert.KernelIdeal.Product

open Cert.KernelIdeal Cert.KernelIdeal.Gen Idealize.ShloMosaic Idealize.ShloMosaic.TcCoe Idealize.SL.Sem
open Idealize.ShloMosaic.StableHlo Cert.Spec

variable (m : (ℓ : Loc nD τ sig) → Buf (Elt Ideal) ℓ)

/-- The index words of the assembly: each coordinate list with its negative entries wrapped by 128, the two lists
    side by side. -/
def blockIdx (a2 a3 : (⟨S3276, .i32⟩ : BufTy).Contents (Elt Ideal)) : (⟨S3276x2, .i32⟩ : BufTy).Contents (Elt Ideal) :=
  concatenate S3276x2 1
    [⟨S3276x1, (broadcastInDim S3276x1 ![0] bcast_S3276_S3276x1_0 (select (cmpi .slt a2 (broadcastInDim S3276 ![] bcast_S_S3276 (constantI S_ 32 0#32))) (addi a2 (broadcastInDim S3276 ![] bcast_S_S3276 (constantI S_ 32 128#32))) a2))⟩,
     ⟨S3276x1, (broadcastInDim S3276x1 ![0] bcast_S3276_S3276x1_0 (select (cmpi .slt a3 (broadcastInDim S3276 ![] bcast_S_S3276 (constantI S_ 32 0#32))) (addi a3 (broadcastInDim S3276 ![] bcast_S_S3276 (constantI S_ 32 128#32))) a3))⟩]
    concatenates_S3276x1_S3276x1_S3276x2_d1

/-- The zero array the tiles are written into, and the tiles narrowed. -/
def zeros : (⟨S128x32x128x32, .bf16⟩ : BufTy).Contents (Elt Ideal) :=
  broadcastInDim S128x32x128x32 ![] bcast_S_S128x32x128x32 (constant (F := Ideal) S_ .bf16 0x0000#16)

/-- The blocked weight: the tiles overwritten into the zero array at their block coordinates. -/
def blocked (a1 : (⟨S3276x32x32, .f32⟩ : BufTy).Contents (Elt Ideal)) (a2 a3 : (⟨S3276, .i32⟩ : BufTy).Contents (Elt Ideal)) :
    (⟨S128x32x128x32, .bf16⟩ : BufTy).Contents (Elt Ideal) :=
  Host.scatter scatter_S128x32x128x32_S3276x2_S3276x32x32_12_02_02_1 (fun _ b => b) zeros (blockIdx a2 a3)
    (truncf (F := Ideal) .bf16 a1 bitsLt_bf16_f32)

/-- The dense weight: the blocked weight regrouped row-major. -/
def dense (a1 : (⟨S3276x32x32, .f32⟩ : BufTy).Contents (Elt Ideal)) (a2 a3 : (⟨S3276, .i32⟩ : BufTy).Contents (Elt Ideal)) :
    SW.Idx → EReal :=
  shapeCast S4096x4096 (blocked a1 a2 a3) shapeCasts_S128x32x128x32_S4096x4096

set_option maxHeartbeats 2000000 in
/-- THE WEIGHT THE REGION FINDS is the dense weight of the arguments as launched: the wrapper's operations before
    the region, read back in order at the weight's buffer. -/
theorem W_eq (c : Dev nD) : W m c = dense (m ((c : Thread nD τ).loc main_arg1)) (m ((c : Thread nD τ).loc main_arg2)) (m ((c : Thread nD τ).loc main_arg3)) := by
  unfold W
  dsimp only [Gen.V, Gen.hostOps0, Pipeline.arrRef]
  after_results
  rfl

end Cert.KernelIdeal.Product

end
-- ==== Proof.RefProduct.lean ====
/-
  The reference's result is the product of the activations with the weight it assembles.

  The reference ends in one host matrix product of the activations `x0` with its dense weight `y`, contracting the
  activations' columns with the weight's rows; on the extended reals that product read at entry (r, n) is
  ∑ₖ x0(r, k) · y(k, n) — the specification's sum, with the weight left as it is.
-/
import proofs.«111315_j65841848648012_2_alg».proof.Proof.Gen.ReferenceIdeal.Read
import proofs.«111315_j65841848648012_2_alg».proof.Proof.Spec

noncomputable section

namespace Cert.ReferenceIdeal.Product

open Cert.ReferenceIdeal Cert.ReferenceIdeal.Gen Cert.ReferenceIdeal.Read Idealize.ShloMosaic Idealize.ShloMosaic.ValueIdx Cert.Spec

/-- The reference's matrix product: [8192, 4096] by [4096, 4096]. -/
abbrev dot := dot_S8192x4096_S4096x4096_S8192x4096_1_0_0_1_n_n

/-- The host product of the activations with ANY weight array is the specification's product with it. -/
theorem dot_eq_product (x0 : FVec Ideal S8192x4096 .f32) (y : FVec Ideal S4096x4096 .f32) :
    Host.dotGeneral dot none x0 y = product x0 y := by
  funext i
  simp only [Host.dotGeneral]
  rw [Ideal.dotGeneral_apply, ← Equiv.sum_comp (contrEquiv1 dot 4096 rfl rfl).symm]
  refine Finset.sum_congr rfl fun k _ => ?_
  have hk := contrEquiv1_symm_val dot 4096 rfl rfl k
  have el : dot.lhsIdx i ((contrEquiv1 dot 4096 rfl rfl).symm k) = ix2 (i 0) k := funext fun a => Fin.ext (by
    match a with
    | ⟨0, _⟩ => exact lhs_main_v17_0 _ _
    | ⟨1, _⟩ => exact (lhs_main_v17_1 _ _).trans hk)
  have er : dot.rhsIdx i ((contrEquiv1 dot 4096 rfl rfl).symm k) = ix2 k (i 1) := funext fun a => Fin.ext (by
    match a with
    | ⟨0, _⟩ => exact (rhs_main_v17_0 _ _).trans hk
    | ⟨1, _⟩ => exact rhs_main_v17_1 _ _)
  rw [el, er]
  rfl

/-- THE REFERENCE'S RESULT is the product of the activations with the reference's dense weight. -/
theorem result_eq (x0 : (⟨S8192x4096, .f32⟩ : BufTy).Contents (Elt Ideal)) (x1 : (⟨S3276x32x32, .f32⟩ : BufTy).Contents (Elt Ideal))
    (x2 x3 : (⟨S3276, .i32⟩ : BufTy).Contents (Elt Ideal)) :
    val_main_v17 (F := Ideal) x0 x1 x2 x3 = product x0 (val_main_v16 (F := Ideal) x1 x2 x3) := by
  unfold val_main_v17
  exact dot_eq_product x0 _

end Cert.ReferenceIdeal.Product

end
-- ==== Proof.LibScatterReindex.lean ====
/-
  A host scatter under a renaming of the operand's indices, generic in every shape, the update body and the
  element type (imports only the library's pure operations).

  `Host.scatter d f x idx upd` folds one step per update index, in row-major order of the updates: the step of
  update index `j` replaces the operand's element at `d.resultIdx? j idx` (when that is inside the operand) by
  `f` of it and the update's element. Two scatters of the SAME updates through the SAME indices into operands
  of different layouts therefore stay in step when a map `σ` between the operands' index types carries each
  step's target of the one to the target of the other:

  * `Host.scatter_reindex`: if `σ` is injective, `d'.resultIdx? j idx = (d.resultIdx? j idx).map σ` for every
    update index `j`, and the operands agree along `σ` (`x' (σ i) = x i`), then the results agree along `σ`.
    Nothing is asked of the indices: repeated targets are overwritten in the same order on both sides, and a
    dropped update is dropped on both.
  * `ScatterDims.resultIdx?_reindex`: the hypothesis above for a `σ` that permutes the AXES — `σ i b = i (π b)`
    for a surjection `π` of the second operand's axes onto the first's that preserves sizes, window starts and
    window coordinates axis by axis.
-/
import Idealize.ShloMosaic.PureOps

namespace Idealize.ShloMosaic

/-- Two scatters of the same updates whose targets correspond under an injective `σ`, into operands that agree
    along `σ`, have results that agree along `σ`. -/
theorem Host.scatter_reindex {s s' si u : Shape} {α : Type} {w : Nat}
    (d : ScatterDims s si u) (d' : ScatterDims s' si u) (σ : s.Idx → s'.Idx) (hσ : Function.Injective σ)
    (f : α → α → α) (idx : IVec si w) (upd : u.Idx → α)
    (hres : ∀ j, d'.resultIdx? j idx = (d.resultIdx? j idx).map σ)
    (x : s.Idx → α) (x' : s'.Idx → α) (hx : ∀ i, x' (σ i) = x i) (i : s.Idx) :
    Host.scatter d' f x' idx upd (σ i) = Host.scatter d f x idx upd i := by
  unfold Host.scatter
  generalize List.finRange u.numel = l
  induction l generalizing x x' with
  | nil => exact hx i
  | cons n l ih =>
    rw [List.foldl_cons, List.foldl_cons]
    refine ih _ _ fun i' => ?_
    rw [hres]
    cases d.resultIdx? (u.rowMajor.symm n) idx with
    | none => exact hx i'
    | some i0 =>
      show (if σ i' = σ i0 then f (x' (σ i0)) (upd _) else x' (σ i')) = if i' = i0 then f (x i0) (upd _) else x i'
      rw [hx, hx]
      by_cases h : i' = i0
      · rw [if_pos h, if_pos (congrArg σ h)]
      · rw [if_neg h, if_neg (fun e => h (hσ e))]

/-- The target of an update index under a renaming of the operand's axes: when `π` maps the second operand's axes
    onto the first's, preserving each axis's size, window start and window coordinate, the second target is the
    first read through `π`, and it is dropped exactly when the first is. -/
theorem ScatterDims.resultIdx?_reindex {s s' si u : Shape} {w : Nat} (d : ScatterDims s si u) (d' : ScatterDims s' si u)
    (π : Fin s'.rank → Fin s.rank) (hπ : Function.Surjective π) (hsize : ∀ b, s.size (π b) = s'.size b)
    (j : u.Idx) (idx : IVec si w)
    (hstart : ∀ b, d'.start j idx b = d.start j idx (π b)) (hwin : ∀ b, d'.window j b = d.window j (π b)) :
    d'.resultIdx? j idx = (d.resultIdx? j idx).map (fun i b => (i (π b)).cast (hsize b)) := by
  unfold ScatterDims.resultIdx?
  by_cases h : ∀ a, 0 ≤ d.start j idx a + d.window j a ∧ d.start j idx a + d.window j a < s.size a
  · have h' : ∀ b, 0 ≤ d'.start j idx b + d'.window j b ∧ d'.start j idx b + d'.window j b < s'.size b := fun b => by
      rw [hstart, hwin, ← hsize]; exact h (π b)
    rw [dif_pos h, dif_pos h', Option.map_some]
    refine congrArg some (funext fun b => Fin.ext ?_)
    show (d'.start j idx b + d'.window j b).toNat = (d.start j idx (π b) + d.window j (π b)).toNat
    rw [hstart, hwin]
  · have h' : ¬ ∀ b, 0 ≤ d'.start j idx b + d'.window j b ∧ d'.start j idx b + d'.window j b < s'.size b := fun H =>
      h fun a => by
        obtain ⟨b, rfl⟩ := hπ a
        have := H b
        rw [hstart, hwin, ← hsize] at this
        exact this
    rw [dif_neg h, dif_neg h']
    rfl

end Idealize.ShloMosaic
-- ==== Proof.ScatterLayouts.lean ====
/-
  The two assemblies of the dense weight from its compressed blocks are one array.

  The kernel's wrapper writes block `e` (a 32×32 tile `u e`) into a zero array laid out
  [row block c, row r in the block, column block k, column q in the block] at `(cs e, ·, ks e, ·)`: update index
  `(e, r, q)` lands at `(cs e, r, ks e, q)`. The reference writes the same tile into a zero array laid out
  [c, k, r, q] at `(cs e, ks e, ·, ·)` — update index `(e, r, q)` lands at `(cs e, ks e, r, q)` — and then swaps
  the two middle axes. Axis by axis the two targets have the same window start (the signed index word for `c` and
  `k`, zero for `r` and `q`), the same window coordinate (`r`, `q`; zero on `c`, `k`) and the same extent, the
  middle axes exchanged; so an update is inside one array exactly when it is inside the other, at exchanged
  coordinates, and the two row-major folds of "overwrite" stay equal step by step whatever the index words are
  (repeated block coordinates are overwritten in the same order on both sides, out-of-range ones dropped on both).
-/
import proofs.«111315_j65841848648012_2_alg».proof.Proof.Gen.KernelIdeal
import proofs.«111315_j65841848648012_2_alg».proof.Proof.Gen.ReferenceIdeal
import proofs.«111315_j65841848648012_2_alg».proof.Proof.LibScatterReindex

noncomputable section

namespace Cert.Weights

open Idealize.ShloMosaic

/-- The [c, r, k, q] layout (the kernel wrapper's) and the [c, k, r, q] layout (the reference's). -/
abbrev Scrkq : Shape := Cert.KernelIdeal.S128x32x128x32
abbrev Sckrq : Shape := Cert.ReferenceIdeal.S128x128x32x32

/-- The two scatters' dimension numbers. -/
abbrev dK : ScatterDims Scrkq Cert.KernelIdeal.S3276x2 Cert.KernelIdeal.S3276x32x32 :=
  Cert.KernelIdeal.scatter_S128x32x128x32_S3276x2_S3276x32x32_12_02_02_1
abbrev dR : ScatterDims Sckrq Cert.KernelIdeal.S3276x2 Cert.KernelIdeal.S3276x32x32 :=
  Cert.ReferenceIdeal.scatter_S128x128x32x32_S3276x2_S3276x32x32_12_01_01_1

/-- Axis `b` of the [c, k, r, q] layout is axis `π b` of the [c, r, k, q] layout. -/
def π : Fin Sckrq.rank → Fin Scrkq.rank
  | ⟨0, _⟩ => 0 | ⟨1, _⟩ => 2 | ⟨2, _⟩ => 1 | ⟨3, _⟩ => 3

theorem π_surj : Function.Surjective π := fun a =>
  match a with
  | ⟨0, _⟩ => ⟨0, rfl⟩ | ⟨1, _⟩ => ⟨2, rfl⟩ | ⟨2, _⟩ => ⟨1, rfl⟩ | ⟨3, _⟩ => ⟨3, rfl⟩

theorem π_size (b : Fin Sckrq.rank) : Scrkq.size (π b) = Sckrq.size b :=
  match b with
  | ⟨0, _⟩ => rfl | ⟨1, _⟩ => rfl | ⟨2, _⟩ => rfl | ⟨3, _⟩ => rfl

/-- A [c, r, k, q] index read as the [c, k, r, q] index with the middle coordinates exchanged. -/
def swapMid (i : Scrkq.Idx) : Sckrq.Idx := fun b => (i (π b)).cast (π_size b)

theorem swapMid_injective : Function.Injective swapMid := fun i i' h => funext fun a => Fin.ext (by
  match a with
  | ⟨0, _⟩ => exact congrArg Fin.val (congrFun h 0)
  | ⟨1, _⟩ => exact congrArg Fin.val (congrFun h 2)
  | ⟨2, _⟩ => exact congrArg Fin.val (congrFun h 1)
  | ⟨3, _⟩ => exact congrArg Fin.val (congrFun h 3))

/-- The exchange is the source index of the reference's transpose `[0, 2, 1, 3]`. -/
theorem swapMid_eq_src (i : Scrkq.Idx) :
    swapMid i = Shape.Transposes.src Cert.ReferenceIdeal.Facts₀.transposes_S128x128x32x32_S128x32x128x32_0_2_1_3 i :=
  funext fun b => Fin.ext (by
    match b with
    | ⟨0, _⟩ => rfl
    | ⟨1, _⟩ => rfl
    | ⟨2, _⟩ => rfl
    | ⟨3, _⟩ => rfl)

variable (idx : IVec Cert.KernelIdeal.S3276x2 32) (j : Cert.KernelIdeal.S3276x32x32.Idx)

/-- Window starts agree axis by axis: the first index word on `c`, the second on `k`, zero on `r` and `q`. -/
theorem start_eq (b : Fin Sckrq.rank) : dR.start j idx b = dK.start j idx (π b) :=
  match b with
  | ⟨0, _⟩ => rfl
  | ⟨1, _⟩ => rfl
  | ⟨2, _⟩ => rfl
  | ⟨3, _⟩ => rfl

/-- Window coordinates agree axis by axis: `r` and `q` of the update index, zero on `c` and `k`. -/
theorem window_eq (b : Fin Sckrq.rank) : dR.window j b = dK.window j (π b) :=
  match b with
  | ⟨0, _⟩ => rfl
  | ⟨1, _⟩ => rfl
  | ⟨2, _⟩ => rfl
  | ⟨3, _⟩ => rfl

/-- So update index `j` lands in the reference's array where it lands in the wrapper's, middle coordinates
    exchanged, and is dropped from one exactly when it is dropped from the other. -/
theorem resultIdx?_eq : dR.resultIdx? j idx = (dK.resultIdx? j idx).map swapMid :=
  ScatterDims.resultIdx?_reindex dK dR π π_surj π_size j idx (start_eq idx j) (window_eq j)

/-- THE TWO ASSEMBLIES AGREE: the reference's scatter followed by its transpose is the wrapper's scatter, for any
    index words, any update tiles and any two initial arrays that agree under the exchange (both programs start
    from zeros). -/
theorem transpose_scatter_eq {α : Type} (x : Scrkq.Idx → α) (x' : Sckrq.Idx → α) (hx : ∀ i, x' (swapMid i) = x i)
    (upd : Cert.KernelIdeal.S3276x32x32.Idx → α) :
    transpose Scrkq [0, 2, 1, 3] (Host.scatter dR (fun _ b => b) x' idx upd)
        Cert.ReferenceIdeal.Facts₀.transposes_S128x128x32x32_S128x32x128x32_0_2_1_3
      = Host.scatter dK (fun _ b => b) x idx upd := by
  funext i
  show Host.scatter dR (fun _ b => b) x' idx upd (Shape.Transposes.src _ i) = _
  rw [← swapMid_eq_src]
  exact Host.scatter_reindex dK dR swapMid swapMid_injective _ idx upd (resultIdx?_eq idx) x x' hx i

end Cert.Weights

end
-- ==== Proof.WeightsEq.lean ====
/-
  The kernel's dense weight is the reference's.

  Both programs wrap the block coordinates the same way (one term, read in either program), start from zeros (the
  bf16 and the f32 zero patterns both denote the extended real 0) and write the same tiles (narrowing to bf16 is the
  identity on extended reals); the reference's [c, k, r, q] array with its middle axes exchanged is the wrapper's
  [c, r, k, q] array (ScatterLayouts.lean); and both regroup that array row-major into [4096, 4096].
-/
import proofs.«111315_j65841848648012_2_alg».proof.Proof.KernelWeight
import proofs.«111315_j65841848648012_2_alg».proof.Proof.ScatterLayouts
import proofs.«111315_j65841848648012_2_alg».proof.Proof.Gen.ReferenceIdeal.Read

noncomputable section

namespace Cert.Weights

open Idealize.ShloMosaic
open Cert.KernelIdeal.Product (zeros blockIdx blocked dense)
open Cert.ReferenceIdeal.Read (val_main_cst val_main_v0 val_main_v13 val_main_v14 val_main_v15 val_main_v16)

/-- The bf16 zero pattern denotes 0. -/
theorem ofBits_zero_bf16 : Ideal.ofBits .bf16 0x0000#16 = 0 := by simp [Ideal.ofBits, Ideal.ieee]

/-- The wrapper's initial array is zero everywhere, -/
theorem zeros_apply (i : Scrkq.Idx) : zeros i = 0 := by
  unfold zeros
  rw [broadcastInDim_apply _ Cert.KernelIdeal.Facts₀.bcast_S_S128x32x128x32 _ i (fun a => a.elim0) (fun a => a.elim0)]
  exact ofBits_zero_bf16

/-- and so is the reference's. -/
theorem ref_zeros_apply (i : Sckrq.Idx) : val_main_v0 (F := Ideal) i = 0 := by
  rw [Cert.ReferenceIdeal.Read.val_main_v0_apply, Cert.ReferenceIdeal.Read.val_main_cst_apply]
  exact Ideal.ofBits_zero_f32

variable (a1 : (⟨Cert.KernelIdeal.S3276x32x32, .f32⟩ : BufTy).Contents (Elt Ideal))
  (a2 a3 : (⟨Cert.KernelIdeal.S3276, .i32⟩ : BufTy).Contents (Elt Ideal))

/-- The index words are one term of the two coordinate lists in both programs. -/
theorem idx_eq : val_main_v13 (F := Ideal) a2 a3 = blockIdx a2 a3 := rfl

/-- The reference's blocked weight with its middle axes exchanged is the wrapper's blocked weight. -/
theorem blocked_eq :
    transpose Scrkq [0, 2, 1, 3] (val_main_v14 (F := Ideal) a1 a2 a3)
        Cert.ReferenceIdeal.Facts₀.transposes_S128x128x32x32_S128x32x128x32_0_2_1_3 = blocked a1 a2 a3 := by
  unfold val_main_v14 blocked
  rw [idx_eq]
  exact transpose_scatter_eq (blockIdx a2 a3) zeros (val_main_v0 (F := Ideal))
    (fun i => by rw [ref_zeros_apply, zeros_apply]) a1

/-- THE DENSE WEIGHTS AGREE. -/
theorem dense_eq : dense a1 a2 a3 = val_main_v16 (F := Ideal) a1 a2 a3 := by
  unfold dense val_main_v16 val_main_v15
  rw [blocked_eq]

end Cert.Weights

end
-- ==== Proof.lean ====
/-
  A block-sparse linear layer, densified: the kernel against its reference, over the extended reals.

  Both programs compute  out = x · W  for activations x : [8192, 4096] and a weight W : [4096, 4096] that is zero but
  for 3276 tiles of 32 × 32, tile e sitting at block row cs(e), block column ks(e). Both assemble W on the host by
  overwriting a zero array with the tiles and multiply afterwards; they differ in three ways, none of which changes
  a value on the extended reals:
   * the layout of the array the tiles are written into — [block row, row, block column, column] in the kernel's
     wrapper, [block row, block column, row, column] followed by an exchange of the middle axes in the reference.
     Entry (cs(e), r, ks(e), q) of the one and entry (cs(e), ks(e), r, q) of the other receive the same tile
     entries in the same order, for ANY coordinate words: a coordinate outside [0, 128) after the one wrap of a
     negative word drops the tile on both sides, repeated coordinates are overwritten in the same order on both
     (Proof/LibScatterReindex.lean, Proof/ScatterLayouts.lean, Proof/WeightsEq.lean);
   * the number format — the wrapper narrows the tiles, and the kernel the activations, to bf16: the identity here;
   * the product itself — the reference's one host product against the kernel's 64 grid steps, each multiplying a
     block of 128 rows of x by the whole W into a zero tile: each is ∑ₖ x(r, k) · W(k, n) entry by entry, and the 64
     row blocks tile the result (Proof/KernelBlock.lean, Proof/KernelArray.lean, Proof/RefProduct.lean).
  Only one arrangement of sums and products occurs on both sides, so the finiteness of the inputs is never used.
  The three frames: the kernel's two are the generated frame certificates; the reference's is its run with the
  result forgotten. The idealization rewrote nothing, so there is nothing to preserve.
-/
import proofs.«111315_j65841848648012_2_alg».proof.Defs
import proofs.«111315_j65841848648012_2_alg».proof.Proof.Gen.Kernel
import proofs.«111315_j65841848648012_2_alg».proof.Proof.Gen.Kernel.Skeleton
import proofs.«111315_j65841848648012_2_alg».proof.Proof.Gen.Kernel.Launch
import proofs.«111315_j65841848648012_2_alg».proof.Proof.Gen.Kernel.Points
import proofs.«111315_j65841848648012_2_alg».proof.Proof.Gen.Kernel.Frame
import proofs.«111315_j65841848648012_2_alg».proof.Proof.Gen.KernelIdeal
import proofs.«111315_j65841848648012_2_alg».proof.Proof.Gen.KernelIdeal.Skeleton
import proofs.«111315_j65841848648012_2_alg».proof.Proof.Gen.KernelIdeal.Launch
import proofs.«111315_j65841848648012_2_alg».proof.Proof.Gen.KernelIdeal.Points
import proofs.«111315_j65841848648012_2_alg».proof.Proof.Gen.KernelIdeal.Frame
import proofs.«111315_j65841848648012_2_alg».proof.Proof.Gen.ReferenceIdeal
import proofs.«111315_j65841848648012_2_alg».proof.Proof.Gen.Pre_finite_inputs
import proofs.«111315_j65841848648012_2_alg».proof.Proof.Gen.KernelIdeal.Value
import proofs.«111315_j65841848648012_2_alg».proof.Proof.Gen.ReferenceIdeal.Run
import proofs.«111315_j65841848648012_2_alg».proof.Proof.Gen.ReferenceIdeal.Read
import proofs.«111315_j65841848648012_2_alg».proof.Proof.KernelArray
import proofs.«111315_j65841848648012_2_alg».proof.Proof.KernelWeight
import proofs.«111315_j65841848648012_2_alg».proof.Proof.RefProduct
import proofs.«111315_j65841848648012_2_alg».proof.Proof.WeightsEq
import Idealize.ShloMosaic.Adequacy
import Idealize.ShloMosaic.Init

noncomputable section

namespace Cert.Proof

open Idealize.ShloMosaic Idealize.ShloMosaic.TcCoe Idealize.SL.Sem

/-- The kernel as printed runs and leaves its arguments unchanged: its generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the result array at  x · W  for one and the same dense weight W
    of the arguments: the kernel's by its run read block by block, the reference's by its run read operation by
    operation, the two weights equal by the correspondence of the two tile layouts. -/
theorem algebraic : Cert.algebraic_KernelIdeal_ReferenceIdeal := by
  intro m ρ m' ρ' _ hagree
  refine ⟨fun c => Cert.Spec.product (m ((c.tc : Thread Cert.KernelIdeal.nD Cert.KernelIdeal.τ).loc Cert.KernelIdeal.main_arg0))
    (Cert.KernelIdeal.Product.W m c), Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  beta_reduce
  rw [Cert.ReferenceIdeal.Read.val_main_v17_eq, Cert.ReferenceIdeal.Product.result_eq,
    (hagree c).1, (hagree c).2.1, (hagree c).2.2.1, (hagree c).2.2.2,
    Cert.KernelIdeal.Product.W_eq, Cert.Weights.dense_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
